-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000x128 : Shape := ⟨2, ![100000, 128]⟩
abbrev S600000 : Shape := ⟨1, ![600000]⟩
abbrev S128x128 : Shape := ⟨2, ![128, 128]⟩
abbrev S128 : Shape := ⟨1, ![128]⟩
abbrev S7 : Shape := ⟨1, ![7]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S7 : S_.BroadcastsInDim S7 (![] : Fin 0 → Fin S7.rank)
  reducesTo_S7_S_d0 : S7.ReducesTo [0] S_

variable [Facts]

def fn_part1 {F : FTy → Type} [FloatOps F] (main_arg7 : FVec F S7 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S7 .f32 := Host.absf main_arg7
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S200000x128 .f32) (main_arg1 : FVec F S100000x128 .f32) (main_arg2 : IVec S600000 32) (main_arg3 : IVec S600000 32) (main_arg4 : IVec S600000 32) (main_arg5 : FVec F S128x128 .f32) (main_arg6 : FVec F S128 .f32) (main_arg7 : FVec F S7 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_v13 main_v16
-- ==== Kernel.lean ====
abbrev S200000x128 : Shape := ⟨2, ![200000, 128]⟩
abbrev S100000x128 : Shape := ⟨2, ![100000, 128]⟩
abbrev S600000 : Shape := ⟨1, ![600000]⟩
abbrev S128x128 : Shape := ⟨2, ![128, 128]⟩
abbrev S128 : Shape := ⟨1, ![128]⟩
abbrev S7 : Shape := ⟨1, ![7]⟩
abbrev S8000x128 : Shape := ⟨2, ![8000, 128]⟩
abbrev S_ : Shape := ⟨0, ![]⟩
abbrev S600000x1 : Shape := ⟨2, ![600000, 1]⟩
abbrev S100000 : Shape := ⟨1, ![100000]⟩
abbrev S600000x128 : Shape := ⟨2, ![600000, 128]⟩
abbrev S5000x128 : Shape := ⟨2, ![5000, 128]⟩
abbrev S1x128 : Shape := ⟨2, ![1, 128]⟩

abbrev nBuf : Space → Nat
  | .hbm => 66
  | .vmem => 10
  | .smem => 0
  | _ => 0

abbrev bufTy : (tb : Table) → Fin (tcTables nBuf tb) → BufTy
  | .hbm, ⟨0, _⟩ => ⟨S200000x128, .f32⟩
  | .hbm, ⟨1, _⟩ => ⟨S100000x128, .f32⟩
  | .hbm, ⟨2, _⟩ => ⟨S600000, .i32⟩
  | .hbm, ⟨3, _⟩ => ⟨S600000, .i32⟩
  | .hbm, ⟨4, _⟩ => ⟨S600000, .i32⟩
  | .hbm, ⟨5, _⟩ => ⟨S128x128, .f32⟩
  | .hbm, ⟨6, _⟩ => ⟨S128, .f32⟩
  | .hbm, ⟨7, _⟩ => ⟨S7, .f32⟩
  | .hbm, ⟨8, _⟩ => ⟨S200000x128, .f32⟩
  | .hbm, ⟨9, _⟩ => ⟨S_, .f32⟩
  | .hbm, ⟨10, _⟩ => ⟨S7, .f32⟩
  | .hbm, ⟨11, _⟩ => ⟨S7, .f32⟩
  | .hbm, ⟨12, _⟩ => ⟨S_, .f32⟩
  | .hbm, ⟨13, _⟩ => ⟨S7, .f32⟩
  | .hbm, ⟨14, _⟩ => ⟨S7, .i1⟩
  | .hbm, ⟨15, _⟩ => ⟨S_, .f32⟩
  | .hbm, ⟨16, _⟩ => ⟨S7, .f32⟩
  | .hbm, ⟨17, _⟩ => ⟨S7, .f32⟩
  | .hbm, ⟨18, _⟩ => ⟨S7, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000, .f32⟩
  | .hbm, ⟨28, _⟩ => ⟨S_, .f32⟩
  | .hbm, ⟨29, _⟩ => ⟨S100000, .f32⟩
  | .hbm, ⟨30, _⟩ => ⟨S600000x1, .i32⟩
  | .hbm, ⟨31, _⟩ => ⟨S100000, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000, .f32⟩
  | .hbm, ⟨41, _⟩ => ⟨S600000, .f32⟩
  | .hbm, ⟨42, _⟩ => ⟨S600000x1, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S600000x128, .f32⟩
  | .hbm, ⟨53, _⟩ => ⟨S600000x128, .f32⟩
  | .hbm, ⟨54, _⟩ => ⟨S_, .f32⟩
  | .hbm, ⟨55, _⟩ => ⟨S100000x128, .f32⟩
  | .hbm, ⟨56, _⟩ => ⟨S_, .i32⟩
  | .hbm, ⟨57, _⟩ => ⟨S600000, .i32⟩
  | .hbm, ⟨58, _⟩ => ⟨S600000, .i1⟩
  | .hbm, ⟨59, _⟩ => ⟨S_, .i32⟩
  | .hbm, ⟨60, _⟩ => ⟨S600000, .i32⟩
  | .hbm, ⟨61, _⟩ => ⟨S600000, .i32⟩
  | .hbm, ⟨62, _⟩ => ⟨S600000, .i32⟩
  | .hbm, ⟨63, _⟩ => ⟨S600000x1, .i32⟩
  | .hbm, ⟨64, _⟩ => ⟨S100000x128, .f32⟩
  | .hbm, ⟨65, _⟩ => ⟨S100000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S8000x128, .f32⟩
  | .local _ .vmem, ⟨4, _⟩ => ⟨S8000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S7 : S_.BroadcastsInDim S7 (![] : Fin 0 → Fin S7.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000 : S_.BroadcastsInDim S100000 (![] : Fin 0 → Fin S100000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  dot_S8000x128_S128x128_S8000x128_1_0_0_1_n_n_wf : DotDims.WF S8000x128 S128x128 S8000x128 [1] [0] [0] [1] [] []
  gather_S7_S600000x1_S600000_n_0_n_n_0_1_1_wf : GatherDims.WF S7 S600000x1 S600000 [] [0] [] [0] [] 1 ![1]
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S200000x128_S600000x1_S600000x128_1_0_n_n_0_1_1128_wf : GatherDims.WF S200000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S200000x128.size a
  hwx0_2 : ∀ i : grid0.Coords, EltTy.bits .f32 = 32 ∨ (Rect.block (s := S200000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S7_S600000x1_S600000_n_0_n_n_0_1_1 : GatherDims S7 S600000x1 S600000 where
  offsetDims := []
  collapsedSliceDims := [0]
  operandBatchingDims := []
  startIndicesBatchingDims := []
  startIndexMap := [0]
  indexVectorDim := 1
  sliceSizes := ![1]
  wf := gather_S7_S600000x1_S600000_n_0_n_n_0_1_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x128 : Shape := ⟨2, ![200000, 128]⟩
abbrev S100000x128 : Shape := ⟨2, ![100000, 128]⟩
abbrev S600000 : Shape := ⟨1, ![600000]⟩
abbrev S128x128 : Shape := ⟨2, ![128, 128]⟩
abbrev S128 : Shape := ⟨1, ![128]⟩
abbrev S7 : Shape := ⟨1, ![7]⟩
abbrev S_ : Shape := ⟨0, ![]⟩
abbrev S600000x1 : Shape := ⟨2, ![600000, 1]⟩
abbrev S100000 : Shape := ⟨1, ![100000]⟩
abbrev S600000x128 : Shape := ⟨2, ![600000, 128]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S100000x128, .f32⟩
  | .hbm, ⟨2, _⟩ => ⟨S600000, .i32⟩
  | .hbm, ⟨3, _⟩ => ⟨S600000, .i32⟩
  | .hbm, ⟨4, _⟩ => ⟨S600000, .i32⟩
  | .hbm, ⟨5, _⟩ => ⟨S128x128, .f32⟩
  | .hbm, ⟨6, _⟩ => ⟨S128, .f32⟩
  | .hbm, ⟨7, _⟩ => ⟨S7, .f32⟩
  | .hbm, ⟨8, _⟩ => ⟨S200000x128, .f32⟩
  | .hbm, ⟨9, _⟩ => ⟨S100000x128, .f32⟩
  | .hbm, ⟨10, _⟩ => ⟨S_, .f32⟩
  | .hbm, ⟨11, _⟩ => ⟨S7, .f32⟩
  | .hbm, ⟨12, _⟩ => ⟨S7, .f32⟩
  | .hbm, ⟨13, _⟩ => ⟨S_, .f32⟩
  | .hbm, ⟨14, _⟩ => ⟨S7, .f32⟩
  | .hbm, ⟨15, _⟩ => ⟨S7, .i1⟩
  | .hbm, ⟨16, _⟩ => ⟨S_, .f32⟩
  | .hbm, ⟨17, _⟩ => ⟨S7, .f32⟩
  | .hbm, ⟨18, _⟩ => ⟨S7, .f32⟩
  | .hbm, ⟨19, _⟩ => ⟨S7, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000, .f32⟩
  | .hbm, ⟨29, _⟩ => ⟨S_, .f32⟩
  | .hbm, ⟨30, _⟩ => ⟨S100000, .f32⟩
  | .hbm, ⟨31, _⟩ => ⟨S600000x1, .i32⟩
  | .hbm, ⟨32, _⟩ => ⟨S100000, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000, .f32⟩
  | .hbm, ⟨42, _⟩ => ⟨S600000, .f32⟩
  | .hbm, ⟨43, _⟩ => ⟨S600000x1, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S600000x128, .f32⟩
  | .hbm, ⟨54, _⟩ => ⟨S600000x128, .f32⟩
  | .hbm, ⟨55, _⟩ => ⟨S_, .f32⟩
  | .hbm, ⟨56, _⟩ => ⟨S100000x128, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]

class Facts₀ : Prop where
  bcast_S_S7 : S_.BroadcastsInDim S7 (![] : Fin 0 → Fin S7.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000 : S_.BroadcastsInDim S100000 (![] : Fin 0 → Fin S100000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S200000x128_S128x128_S200000x128_1_0_0_1_n_n_wf : DotDims.WF S200000x128 S128x128 S200000x128 [1] [0] [0] [1] [] []
  dot_S100000x128_S128x128_S100000x128_1_0_0_1_n_n_wf : DotDims.WF S100000x128 S128x128 S100000x128 [1] [0] [0] [1] [] []
  gather_S7_S600000x1_S600000_n_0_n_n_0_1_1_wf : GatherDims.WF S7 S600000x1 S600000 [] [0] [] [0] [] 1 ![1]
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S200000x128_S600000x1_S600000x128_1_0_n_n_0_1_1128_wf : GatherDims.WF S200000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S7_S600000x1_S600000_n_0_n_n_0_1_1 : GatherDims S7 S600000x1 S600000 where
  offsetDims := []
  collapsedSliceDims := [0]
  operandBatchingDims := []
  startIndicesBatchingDims := []
  startIndexMap := [0]
  indexVectorDim := 1
  sliceSizes := ![1]
  wf := gather_S7_S600000x1_S600000_n_0_n_n_0_1_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.KernelWhole.lean ====
/-
  The idealized kernel program's run, with its result named.

  @main is five segments: the first tiled stage, three stretches of host operations, the second tiled stage.  The
  contents of every buffer at each segment boundary are a fold from the launch memory; at the end every unscoped buffer
  holds the last boundary's contents.  Read at the result buffer this names the result; read at the arguments it says
  they are as launched.
-/
import proofs.«141376_j23278722744746_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the arguments end as launched. -/
theorem run : θ_run defs (onTc (τ := τ) (main (F := F))) ⟨m, fun _ => 0, ρ⟩ (fun r => ∀ c : Dev nD,
      r.2.mem ((c.tc : Thread nD τ).loc main_v40) = W5 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v40 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Whole

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.Spec.lean ====
/-
  The two dense stages of the layer, stated once over plain arrays of extended reals.

  `prod x w` is the matrix product of an [a, 128] array with a [128, 128] array: entry (p, q) is the sum over k of
  x (p, k) · w (k, q).  `addRow o b` adds a vector [128] to every row of an [a, 128] array: entry (p, q) is
  o (p, q) + b q.  Both are written index by index, so that a tiled computation and a whole-array one can be
  compared entry by entry; the number of rows is a variable, so the same two functions serve a block and the array.
-/
import Idealize.ShloMosaic.Lib.ValueIdx
import Idealize.ShloMosaic.PureOps.Ideal.Laws

noncomputable section

open scoped BigOperators

namespace Cert.Layer

open Idealize.ShloMosaic Idealize.ShloMosaic.ValueIdx

/-- The product of an [a, 128] array with a [128, 128] array, entry by entry. -/
def prod {a : ℕ} (x : FVec Ideal ⟨2, ![a, 128]⟩ .f32) (w : FVec Ideal ⟨2, ![128, 128]⟩ .f32) :
    FVec Ideal ⟨2, ![a, 128]⟩ .f32 :=
  fun i => ∑ k : Fin 128, x (ix2 (i 0) k) * w (ix2 k (i 1))

/-- A vector [128] added to every row of an [a, 128] array, entry by entry. -/
def addRow {a : ℕ} (o : FVec Ideal ⟨2, ![a, 128]⟩ .f32) (b : FVec Ideal ⟨1, ![128]⟩ .f32) :
    FVec Ideal ⟨2, ![a, 128]⟩ .f32 :=
  fun i => o i + b (ix1 (i 1))

theorem prod_apply {a : ℕ} (x : FVec Ideal ⟨2, ![a, 128]⟩ .f32) (w : FVec Ideal ⟨2, ![128, 128]⟩ .f32)
    (p : Fin a) (q : Fin 128) : prod x w (ix2 p q) = ∑ k : Fin 128, x (ix2 p k) * w (ix2 k q) := rfl

theorem addRow_apply {a : ℕ} (o : FVec Ideal ⟨2, ![a, 128]⟩ .f32) (b : FVec Ideal ⟨1, ![128]⟩ .f32)
    (p : Fin a) (q : Fin 128) : addRow o b (ix2 p q) = o (ix2 p q) + b (ix1 q) := rfl

end Cert.Layer

end
-- ==== Proof.ProductStage.lean ====
/-
  The first tiled stage: twenty-five row blocks of 8000 rows, each the product of that block of the source
  features with the whole weight matrix.

  At a grid point t the body loads rows 8000·t … 8000·t + 7999 of the features and the whole weight matrix, and
  stores their product (accumulated onto zero) as the same rows of the output.  Entry (p, q) of a block's product is
  the sum over k of feature (8000·t + p, k) · weight (k, q): that is entry (8000·t + p, q) of the product of the
  whole arrays.  The twenty-five blocks tile the 200000 rows, so after the last write-back the output array is the
  whole product.
-/
import proofs.«141376_j23278722744746_1_alg».proof.Proof.Gen.KernelIdeal.Frame
import proofs.«141376_j23278722744746_1_alg».proof.Proof.LibPlainMatmul
import proofs.«141376_j23278722744746_1_alg».proof.Proof.Spec
import Idealize.ShloMosaic.Lib.Pipeline.Value
import Idealize.ShloMosaic.Lib.ValueIdx

noncomputable section

open scoped BigOperators

namespace Cert.KernelIdeal.ProductStage

open Cert.KernelIdeal Cert.KernelIdeal.Gen Idealize.ShloMosaic Idealize.ShloMosaic.TcCoe Idealize.ShloMosaic.ValueIdx
open Idealize.SL.Sem
open Idealize.ShloMosaic.Pipeline (Dat)

/-- The body's loads and its store start at the origin of their staging buffers. -/
theorem origin2 : (![0, 0] : Fin 2 → Nat) = fun _ => 0 := funext fun a => by fin_cases a <;> rfl

/-- The body's stored value at (p, q): the sum over k of the loaded feature block at (p, k) times the loaded weights
    at (k, q) — the rounding to bf16 on the way in is the identity on the extended reals, and the accumulator starts at
    zero. -/
theorem stored_apply (x0 : FVec Ideal S8000x128 .f32) (x1 : FVec Ideal S128x128 .f32) (p : Fin 8000) (q : Fin 128) :
    k0_pay1 (F := Ideal) x0 x1 (ix2 p q) = ∑ k : Fin 128, x0 (ix2 p k) * x1 (ix2 k q) := by
  unfold k0_pay1
  exact Cert.PlainMatmul.zero_acc_apply dot_S8000x128_S128x128_S8000x128_1_0_0_1_n_n_wf none
    (truncf .bf16 x0 bitsLt_bf16_f32) (truncf .bf16 x1 bitsLt_bf16_f32) p q

/-- A block's product is the block of the whole product: when the feature block's entry (p, k) is the array's at the
    output entry's row and column k, and the weight block's entry (k, q) is the array's at row k and the output entry's
    column, the stored value at an entry is the whole product there. -/
theorem stored_eq_prod (X : FVec Ideal S200000x128 .f32) (W : FVec Ideal S128x128 .f32)
    (e0 : S8000x128.Idx → S200000x128.Idx) (e1 : S128x128.Idx → S128x128.Idx) (e2 : S8000x128.Idx → S200000x128.Idx)
    (h0 : ∀ (p : Fin 8000) (q k : Fin 128), e0 (ix2 p k) = ix2 (e2 (ix2 p q) 0) k)
    (h1 : ∀ (p : Fin 8000) (q k : Fin 128), e1 (ix2 k q) = ix2 k (e2 (ix2 p q) 1))
    (j : S8000x128.Idx) :
    k0_pay1 (F := Ideal) (fun y => X (e0 y)) (fun y => W (e1 y)) j = Cert.Layer.prod X W (e2 j) := by
  obtain ⟨p, q, rfl⟩ : ∃ (p : Fin 8000) (q : Fin 128), j = ix2 p q := ⟨j 0, j 1, eq_ix2 j⟩
  rw [stored_apply]
  unfold Cert.Layer.prod
  refine Finset.sum_congr rfl fun k _ => ?_
  show X (e0 (ix2 p k)) * W (e1 (ix2 k q)) = _
  rw [h0 p q k, h1 p q k]
  rfl

section Region

variable (V : (c : Dev nD) → (b : Ref sig .tc) → Buf (Elt Ideal) ((c : Thread nD τ).loc b))

/-- The printed index maps over the grid: the feature block and the output block sit at block row t and block column
    0, the weights at block (0, 0). -/
theorem index_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every block row is some grid point's. -/
theorem index_onto : ∀ q0 : Fin 25, ∃ t : Fin cfg0.N, win0_2.index t = ![q0.val, 0] :=
  (by decide +kernel : ∀ q0 : Fin 25, ∃ t : Fin grid0.N, win0_2.index t = ![q0.val, 0])

/-- What grid point t writes back is block t of the whole product of the arrays the region finds. -/
theorem flushed_eq (c : Dev nD) (t : Fin cfg0.N) :
    (dat0 V c).flushed 2 t
      = ((cfg0.win 2).blk t).view.read (Elt Ideal) (Cert.Layer.prod (V c main_arg0) (V c main_arg5)) := by
  show (cfg0.win 2).cut (grid0.coords t) ((dat0 V c).after 2 t) = _
  rw [after0_2]
  unfold out0_2
  rw [View.canon_unit_zero origin2]
  simp only [View.ld_unit_zero (S := S8000x128) origin2, View.ld_unit_zero (S := S128x128) origin2]
  obtain ⟨e0, e1, e2, e3, e4⟩ := index_facts t
  funext j
  show k0_pay1 (F := Ideal) (fun y => V c main_arg0 (((cfg0.win 0).blk t).view.emb y))
      (fun y => V c main_arg5 (((cfg0.win 1).blk t).view.emb y)) j
    = Cert.Layer.prod (V c main_arg0) (V c main_arg5) (((cfg0.win 2).blk t).view.emb j)
  refine stored_eq_prod (V c main_arg0) (V c main_arg5) _ _ _ (fun p q k => ?_) (fun p q k => ?_) j
  · funext a; apply Fin.ext
    match a with
    | ⟨0, _⟩ =>
      show win0_0.index t (0 : Fin 2) * 8000 + 1 * p.val = win0_2.index t (0 : Fin 2) * 8000 + 1 * p.val
      omega
    | ⟨1, _⟩ =>
      show win0_0.index t (1 : Fin 2) * 128 + 1 * k.val = k.val
      omega
  · funext a; apply Fin.ext
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega

/-- An index of the output array is in point t's block iff each coordinate is in the block's range on its axis. -/
theorem mem_block (t : Fin cfg0.N) (i : S200000x128.Idx) :
    i ∈ ((cfg0.win 2).blk t).view.set ↔ ∀ a : Fin 2, win0_2.index t a * S8000x128.size a ≤ (i a).val
      ∧ (i a).val < win0_2.index t a * S8000x128.size a + S8000x128.size a := by
  show i ∈ ((View.whole main_v0).slice (win0_2.rect t)).set ↔ _
  rw [View.set_slice_whole, Rect.mem_set_unit]
  exact Iff.rfl

/-- The blocks tile the array: row r is in block r / 8000. -/
theorem covered (i : S200000x128.Idx) :
    ∃ t : Fin cfg0.N, (cfg0.win 2).flush t = true ∧ i ∈ ((cfg0.win 2).blk t).view.set := by
  have hi0 : (i 0).val < 200000 := (i 0).isLt
  have hi1 : (i 1).val < 128 := (i 1).isLt
  obtain ⟨t, ht⟩ := index_onto ⟨(i 0).val / 8000, by omega⟩
  have q0 : win0_2.index t (0 : Fin 2) = (i 0).val / 8000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 8000 ≤ (i 0).val ∧ (i 0).val < win0_2.index t (0 : Fin 2) * 8000 + 8000
    omega
  | ⟨1, _⟩ =>
    show win0_2.index t (1 : Fin 2) * 128 ≤ (i 1).val ∧ (i 1).val < win0_2.index t (1 : Fin 2) * 128 + 128
    omega

/-- After the last write-back the output array is the whole product of the arrays the region finds. -/
theorem array_eq (c : Dev nD) :
    (dat0 V c).arrAt 2 cfg0.N = Cert.Layer.prod (V c main_arg0) (V c main_arg5) :=
  (dat0 V c).arrAt_eq_of_cover 2 _ (fun t _ => flushed_eq V c t) covered

end Region

end Cert.KernelIdeal.ProductStage

end
-- ==== Proof.BiasStage.lean ====
/-
  The second tiled stage: twenty row blocks of 5000 rows, each the aggregated block with the bias vector added to
  every row.

  At a grid point t the body loads rows 5000·t … 5000·t + 4999 of the aggregated array and the whole bias vector,
  views the vector as a row [1, 128], repeats it over the 5000 rows and adds.  Entry (p, q) of the stored block is
  the aggregated entry (5000·t + p, q) plus bias q.  The twenty blocks tile the 100000 rows, so after the last
  write-back the output array is the aggregated array with the bias added to every row.
-/
import proofs.«141376_j23278722744746_1_alg».proof.Proof.Gen.KernelIdeal.Frame
import proofs.«141376_j23278722744746_1_alg».proof.Proof.Spec
import Idealize.ShloMosaic.Lib.Pipeline.Value
import Idealize.ShloMosaic.Lib.ValueIdx
import Idealize.ShloMosaic.Lib.ValueLayout

noncomputable section

namespace Cert.KernelIdeal.BiasStage

open Cert.KernelIdeal Cert.KernelIdeal.Gen Idealize.ShloMosaic Idealize.ShloMosaic.TcCoe Idealize.ShloMosaic.ValueIdx
open Idealize.SL.Sem
open Idealize.ShloMosaic.Pipeline (Dat)

/-- The body's rank-2 load and its store start at the origin of their staging buffers, -/
theorem origin2 : (![0, 0] : Fin 2 → Nat) = fun _ => 0 := funext fun a => by fin_cases a <;> rfl
/-- and so does its load of the vector. -/
theorem origin1 : (![0] : Fin 1 → Nat) = fun _ => 0 := funext fun a => by fin_cases a; rfl

/-- The body's stored value at (p, q): the loaded block's entry there plus entry q of the loaded vector. -/
theorem stored_apply (x0 : FVec Ideal S5000x128 .f32) (x1 : FVec Ideal S128 .f32) (p : Fin 5000) (q : Fin 128) :
    k1_pay1 (F := Ideal) x0 x1 (ix2 p q) = x0 (ix2 p q) + x1 (ix1 q) := by
  unfold k1_pay1
  show shapeCast S5000x128 x0 shapeCasts_S5000x128_S5000x128 (ix2 p q)
      + broadcastTo S5000x128 (shapeCast S1x128 x1 shapeCasts_S128_S1x128) broadcasts_S1x128_S5000x128 (ix2 p q) = _
  rw [shapeCast_self, broadcastTo_1b_ab_apply, shapeCast_a_1a_apply]

/-- A block with the vector added is the block of the whole array with the vector added: when the loaded block's
    entries are the array's at the output entries, and the loaded vector's entry q is the vector's at the output entry's
    column. -/
theorem stored_eq_addRow (O : FVec Ideal S100000x128 .f32) (B : FVec Ideal S128 .f32)
    (e0 : S5000x128.Idx → S100000x128.Idx) (e1 : S128.Idx → S128.Idx) (e2 : S5000x128.Idx → S100000x128.Idx)
    (h0 : ∀ (p : Fin 5000) (q : Fin 128), e0 (ix2 p q) = e2 (ix2 p q))
    (h1 : ∀ (p : Fin 5000) (q : Fin 128), e1 (ix1 q) = ix1 (e2 (ix2 p q) 1))
    (j : S5000x128.Idx) :
    k1_pay1 (F := Ideal) (fun y => O (e0 y)) (fun y => B (e1 y)) j = Cert.Layer.addRow O B (e2 j) := by
  obtain ⟨p, q, rfl⟩ : ∃ (p : Fin 5000) (q : Fin 128), j = ix2 p q := ⟨j 0, j 1, eq_ix2 j⟩
  rw [stored_apply]
  unfold Cert.Layer.addRow
  show O (e0 (ix2 p q)) + B (e1 (ix1 q)) = _
  rw [h0 p q, h1 p q]
  rfl

section Region

variable (V : (c : Dev nD) → (b : Ref sig .tc) → Buf (Elt Ideal) ((c : Thread nD τ).loc b))

/-- The printed index maps over the grid: the aggregated block and the output block sit at block row t and block
    column 0, the vector at block 0. -/
theorem index_facts : ∀ t : Fin cfg1.N,
    win1_0.index t (0 : Fin 2) = win1_2.index t (0 : Fin 2)
    ∧ win1_0.index t (1 : Fin 2) = 0
    ∧ win1_1.index t (0 : Fin 1) = 0
    ∧ win1_2.index t (1 : Fin 2) = 0 :=
  (by decide +kernel : ∀ t : Fin grid1.N, _)

/-- Every block row is some grid point's. -/
theorem index_onto : ∀ q0 : Fin 20, ∃ t : Fin cfg1.N, win1_2.index t = ![q0.val, 0] :=
  (by decide +kernel : ∀ q0 : Fin 20, ∃ t : Fin grid1.N, win1_2.index t = ![q0.val, 0])

/-- What grid point t writes back is block t of the aggregated array the region finds, the vector it finds added to
    every row. -/
theorem flushed_eq (c : Dev nD) (t : Fin cfg1.N) :
    (dat1 V c).flushed 2 t
      = ((cfg1.win 2).blk t).view.read (Elt Ideal) (Cert.Layer.addRow (V c main_v39) (V c main_arg6)) := by
  show (cfg1.win 2).cut (grid1.coords t) ((dat1 V c).after 2 t) = _
  rw [after1_2]
  unfold out1_2
  rw [View.canon_unit_zero origin2]
  simp only [View.ld_unit_zero (S := S5000x128) origin2, View.ld_unit_zero (S := S128) origin1]
  obtain ⟨e0, e1, e2, e3⟩ := index_facts t
  funext j
  show k1_pay1 (F := Ideal) (fun y => V c main_v39 (((cfg1.win 0).blk t).view.emb y))
      (fun y => V c main_arg6 (((cfg1.win 1).blk t).view.emb y)) j
    = Cert.Layer.addRow (V c main_v39) (V c main_arg6) (((cfg1.win 2).blk t).view.emb j)
  refine stored_eq_addRow (V c main_v39) (V c main_arg6) _ _ _ (fun p q => ?_) (fun p q => ?_) j
  · funext a; apply Fin.ext
    match a with
    | ⟨0, _⟩ =>
      show win1_0.index t (0 : Fin 2) * 5000 + 1 * p.val = win1_2.index t (0 : Fin 2) * 5000 + 1 * p.val
      omega
    | ⟨1, _⟩ =>
      show win1_0.index t (1 : Fin 2) * 128 + 1 * q.val = win1_2.index t (1 : Fin 2) * 128 + 1 * q.val
      omega
  · funext a; apply Fin.ext
    match a with
    | ⟨0, _⟩ =>
      show win1_1.index t (0 : Fin 1) * 128 + 1 * q.val = win1_2.index t (1 : Fin 2) * 128 + 1 * q.val
      omega

/-- An index of the output array is in point t's block iff each coordinate is in the block's range on its axis. -/
theorem mem_block (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v40).slice (win1_2.rect t)).set ↔ _
  rw [View.set_slice_whole, Rect.mem_set_unit]
  exact Iff.rfl

/-- The blocks tile the array: row r is in block r / 5000. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- After the last write-back the output array is the aggregated array the region finds with the vector it finds
    added to every row. -/
theorem array_eq (c : Dev nD) :
    (dat1 V c).arrAt 2 cfg1.N = Cert.Layer.addRow (V c main_v39) (V c main_arg6) :=
  (dat1 V c).arrAt_eq_of_cover 2 _ (fun t _ => flushed_eq V c t) covered

end Region

end Cert.KernelIdeal.BiasStage

end
-- ==== Proof.Messages.lean ====
/-
  The message-passing stage between the two dense stages, as one function of its inputs.

  From the transformed source features h [200000, 128], the edge lists row, col, et [600000] and the relation
  weights rel [7]: the relation weights are scaled by 100 and passed through a leaky rectifier (slope 0.01 below zero);
  each edge takes the weight of its type; the weights are summed per destination node and each edge's weight is divided
  by its destination's sum; each edge's message is its normalized weight times the feature row of its source node; the
  messages are summed per destination node into a [100000, 128] array that starts at zero.  Negative indices wrap once
  (the host's indexing convention).  Both programs apply exactly these operations to their own h, so the function is
  stated once and never opened: only the equality of the two h's matters.  `layer` is the whole computation around it.
-/
import proofs.«141376_j23278722744746_1_alg».proof.KernelIdeal
import proofs.«141376_j23278722744746_1_alg».proof.Proof.Gen.KernelIdeal
import proofs.«141376_j23278722744746_1_alg».proof.Proof.Spec

noncomputable section

namespace Cert.KernelIdeal.Messages

open Cert.KernelIdeal Cert.KernelIdeal.Gen Idealize.ShloMosaic

variable {F : FTy → Type} [FloatOps F]

/-- The aggregated messages, one host operation per line in the programs' own order. -/
def aggregate (h : (⟨S200000x128, .f32⟩ : BufTy).Contents (Elt F))
    (row col et : (⟨S600000, .i32⟩ : BufTy).Contents (Elt F))
    (rel : (⟨S7, .f32⟩ : BufTy).Contents (Elt F)) : (⟨S100000x128, .f32⟩ : BufTy).Contents (Elt F) :=
  let cst : (⟨S_, .f32⟩ : BufTy).Contents (Elt F) := (constant S_ .f32 0x42C80000#32)
  let v1 := (broadcastInDim S7 ![] bcast_S_S7 : (⟨S_, .f32⟩ : BufTy).Contents (Elt F) → (⟨S7, .f32⟩ : BufTy).Contents (Elt F)) cst
  let v2 := (mulf : (⟨S7, .f32⟩ : BufTy).Contents (Elt F) → (⟨S7, .f32⟩ : BufTy).Contents (Elt F) → (⟨S7, .f32⟩ : BufTy).Contents (Elt F)) rel v1
  let z0 : (⟨S_, .f32⟩ : BufTy).Contents (Elt F) := constant S_ .f32 0x00000000#32
  let z : (⟨S7, .f32⟩ : BufTy).Contents (Elt F) := broadcastInDim S7 ![] bcast_S_S7 z0
  let ge : (⟨S7, .i1⟩ : BufTy).Contents (Elt F) := cmpf .oge v2 z
  let s0 : (⟨S_, .f32⟩ : BufTy).Contents (Elt F) := constant S_ .f32 0x3C23D70A#32
  let s : (⟨S7, .f32⟩ : BufTy).Contents (Elt F) := broadcastInDim S7 ![] bcast_S_S7 s0
  let sc : (⟨S7, .f32⟩ : BufTy).Contents (Elt F) := mulf s v2
  let v3 : (⟨S7, .f32⟩ : BufTy).Contents (Elt F) := select ge v2 sc
  let c : (⟨S_, .i32⟩ : BufTy).Contents (Elt F) := (constantI S_ 32 0#32)
  let v4 := (broadcastInDim S600000 ![] bcast_S_S600000 : (⟨S_, .i32⟩ : BufTy).Contents (Elt F) → (⟨S600000, .i32⟩ : BufTy).Contents (Elt F)) c
  let v5 := (cmpi .slt : (⟨S600000, .i32⟩ : BufTy).Contents (Elt F) → (⟨S600000, .i32⟩ : BufTy).Contents (Elt F) → (⟨S600000, .i1⟩ : BufTy).Contents (Elt F)) et v4
  let c_0 : (⟨S_, .i32⟩ : BufTy).Contents (Elt F) := (constantI S_ 32 7#32)
  let v6 := (broadcastInDim S600000 ![] bcast_S_S600000 : (⟨S_, .i32⟩ : BufTy).Contents (Elt F) → (⟨S600000, .i32⟩ : BufTy).Contents (Elt F)) c_0
  let v7 := (addi : (⟨S600000, .i32⟩ : BufTy).Contents (Elt F) → (⟨S600000, .i32⟩ : BufTy).Contents (Elt F) → (⟨S600000, .i32⟩ : BufTy).Contents (Elt F)) et v6
  let v8 := (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) v5 v7 et
  let v9 := (broadcastInDim S600000x1 ![0] bcast_S600000_S600000x1_0 : (⟨S600000, .i32⟩ : BufTy).Contents (Elt F) → (⟨S600000x1, .i32⟩ : BufTy).Contents (Elt F)) v8
  let v10 := ((fun x i => Host.gather gather_S7_S600000x1_S600000_n_0_n_n_0_1_1 x i) : (⟨S7, .f32⟩ : BufTy).Contents (Elt F) → (⟨S600000x1, .i32⟩ : BufTy).Contents (Elt F) → (⟨S600000, .f32⟩ : BufTy).Contents (Elt F)) v3 v9
  let cst_1 : (⟨S_, .f32⟩ : BufTy).Contents (Elt F) := (constant S_ .f32 0x00000000#32)
  let v11 := (broadcastInDim S100000 ![] bcast_S_S100000 : (⟨S_, .f32⟩ : BufTy).Contents (Elt F) → (⟨S100000, .f32⟩ : BufTy).Contents (Elt F)) cst_1
  let v12 := (broadcastInDim S600000x1 ![0] bcast_S600000_S600000x1_0 : (⟨S600000, .i32⟩ : BufTy).Contents (Elt F) → (⟨S600000x1, .i32⟩ : BufTy).Contents (Elt F)) col
  let v13 := ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) v11 v12 v10
  let c_2 : (⟨S_, .i32⟩ : BufTy).Contents (Elt F) := (constantI S_ 32 0#32)
  let v14 := (broadcastInDim S600000 ![] bcast_S_S600000 : (⟨S_, .i32⟩ : BufTy).Contents (Elt F) → (⟨S600000, .i32⟩ : BufTy).Contents (Elt F)) c_2
  let v15 := (cmpi .slt : (⟨S600000, .i32⟩ : BufTy).Contents (Elt F) → (⟨S600000, .i32⟩ : BufTy).Contents (Elt F) → (⟨S600000, .i1⟩ : BufTy).Contents (Elt F)) col v14
  let c_3 : (⟨S_, .i32⟩ : BufTy).Contents (Elt F) := (constantI S_ 32 100000#32)
  let v16 := (broadcastInDim S600000 ![] bcast_S_S600000 : (⟨S_, .i32⟩ : BufTy).Contents (Elt F) → (⟨S600000, .i32⟩ : BufTy).Contents (Elt F)) c_3
  let v17 := (addi : (⟨S600000, .i32⟩ : BufTy).Contents (Elt F) → (⟨S600000, .i32⟩ : BufTy).Contents (Elt F) → (⟨S600000, .i32⟩ : BufTy).Contents (Elt F)) col v16
  let v18 := (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) v15 v17 col
  let v19 := (broadcastInDim S600000x1 ![0] bcast_S600000_S600000x1_0 : (⟨S600000, .i32⟩ : BufTy).Contents (Elt F) → (⟨S600000x1, .i32⟩ : BufTy).Contents (Elt F)) v18
  let v20 := ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)) v13 v19
  let v21 := (Host.divf : (⟨S600000, .f32⟩ : BufTy).Contents (Elt F) → (⟨S600000, .f32⟩ : BufTy).Contents (Elt F) → (⟨S600000, .f32⟩ : BufTy).Contents (Elt F)) v10 v20
  let v22 := (broadcastInDim S600000x1 ![0] bcast_S600000_S600000x1_0 : (⟨S600000, .f32⟩ : BufTy).Contents (Elt F) → (⟨S600000x1, .f32⟩ : BufTy).Contents (Elt F)) v21
  let c_4 : (⟨S_, .i32⟩ : BufTy).Contents (Elt F) := (constantI S_ 32 0#32)
  let v23 := (broadcastInDim S600000 ![] bcast_S_S600000 : (⟨S_, .i32⟩ : BufTy).Contents (Elt F) → (⟨S600000, .i32⟩ : BufTy).Contents (Elt F)) c_4
  let v24 := (cmpi .slt : (⟨S600000, .i32⟩ : BufTy).Contents (Elt F) → (⟨S600000, .i32⟩ : BufTy).Contents (Elt F) → (⟨S600000, .i1⟩ : BufTy).Contents (Elt F)) row v23
  let c_5 : (⟨S_, .i32⟩ : BufTy).Contents (Elt F) := (constantI S_ 32 200000#32)
  let v25 := (broadcastInDim S600000 ![] bcast_S_S600000 : (⟨S_, .i32⟩ : BufTy).Contents (Elt F) → (⟨S600000, .i32⟩ : BufTy).Contents (Elt F)) c_5
  let v26 := (addi : (⟨S600000, .i32⟩ : BufTy).Contents (Elt F) → (⟨S600000, .i32⟩ : BufTy).Contents (Elt F) → (⟨S600000, .i32⟩ : BufTy).Contents (Elt F)) row v25
  let v27 := (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) v24 v26 row
  let v28 := (broadcastInDim S600000x1 ![0] bcast_S600000_S600000x1_0 : (⟨S600000, .i32⟩ : BufTy).Contents (Elt F) → (⟨S600000x1, .i32⟩ : BufTy).Contents (Elt F)) v27
  let v29 := ((fun x i => Host.gather gather_S200000x128_S600000x1_S600000x128_1_0_n_n_0_1_1128 x i) : (⟨S200000x128, .f32⟩ : BufTy).Contents (Elt F) → (⟨S600000x1, .i32⟩ : BufTy).Contents (Elt F) → (⟨S600000x128, .f32⟩ : BufTy).Contents (Elt F)) h v28
  let v30 := (broadcastInDim S600000x128 ![0, 1] bcast_S600000x1_S600000x128_0_1 : (⟨S600000x1, .f32⟩ : BufTy).Contents (Elt F) → (⟨S600000x128, .f32⟩ : BufTy).Contents (Elt F)) v22
  let v31 := (mulf : (⟨S600000x128, .f32⟩ : BufTy).Contents (Elt F) → (⟨S600000x128, .f32⟩ : BufTy).Contents (Elt F) → (⟨S600000x128, .f32⟩ : BufTy).Contents (Elt F)) v30 v29
  let cst_6 : (⟨S_, .f32⟩ : BufTy).Contents (Elt F) := (constant S_ .f32 0x00000000#32)
  let v32 := (broadcastInDim S100000x128 ![] bcast_S_S100000x128 : (⟨S_, .f32⟩ : BufTy).Contents (Elt F) → (⟨S100000x128, .f32⟩ : BufTy).Contents (Elt F)) cst_6
  let c_7 : (⟨S_, .i32⟩ : BufTy).Contents (Elt F) := (constantI S_ 32 0#32)
  let v33 := (broadcastInDim S600000 ![] bcast_S_S600000 : (⟨S_, .i32⟩ : BufTy).Contents (Elt F) → (⟨S600000, .i32⟩ : BufTy).Contents (Elt F)) c_7
  let v34 := (cmpi .slt : (⟨S600000, .i32⟩ : BufTy).Contents (Elt F) → (⟨S600000, .i32⟩ : BufTy).Contents (Elt F) → (⟨S600000, .i1⟩ : BufTy).Contents (Elt F)) col v33
  let c_8 : (⟨S_, .i32⟩ : BufTy).Contents (Elt F) := (constantI S_ 32 100000#32)
  let v35 := (broadcastInDim S600000 ![] bcast_S_S600000 : (⟨S_, .i32⟩ : BufTy).Contents (Elt F) → (⟨S600000, .i32⟩ : BufTy).Contents (Elt F)) c_8
  let v36 := (addi : (⟨S600000, .i32⟩ : BufTy).Contents (Elt F) → (⟨S600000, .i32⟩ : BufTy).Contents (Elt F) → (⟨S600000, .i32⟩ : BufTy).Contents (Elt F)) col v35
  let v37 := (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) v34 v36 col
  let v38 := (broadcastInDim S600000x1 ![0] bcast_S600000_S600000x1_0 : (⟨S600000, .i32⟩ : BufTy).Contents (Elt F) → (⟨S600000x1, .i32⟩ : BufTy).Contents (Elt F)) v37
  let v39 := ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) v32 v38 v31
  v39

/-- The whole layer on the extended reals: the source features times the weights, the message-passing stage on that
    product, and the bias added to every row of the aggregated messages. -/
def layer (x : (⟨S200000x128, .f32⟩ : BufTy).Contents (Elt Ideal))
    (row col et : (⟨S600000, .i32⟩ : BufTy).Contents (Elt Ideal))
    (w : (⟨S128x128, .f32⟩ : BufTy).Contents (Elt Ideal)) (b : (⟨S128, .f32⟩ : BufTy).Contents (Elt Ideal))
    (rel : (⟨S7, .f32⟩ : BufTy).Contents (Elt Ideal)) : (⟨S100000x128, .f32⟩ : BufTy).Contents (Elt Ideal) :=
  Cert.Layer.addRow (aggregate (F := Ideal) (Cert.Layer.prod x w) row col et rel) b

end Cert.KernelIdeal.Messages

end
-- ==== Proof.KernelResult.lean ====
/-
  The idealized kernel program's result as a function of its arguments.

  The last boundary's contents at the result buffer are what the second tiled stage leaves: the array it finds in the
  aggregated-messages buffer with the bias it finds added to every row.  The aggregated-messages buffer holds, after the
  three host stretches, the message-passing stage applied to what the first tiled stage left — the product of the source
  features with the weights — and to the edge lists and relation weights, which nothing before has written.  The bias
  buffer is an argument, which nothing writes.
-/
import proofs.«141376_j23278722744746_1_alg».proof.Proof.Gen.KernelIdeal.Frame
import proofs.«141376_j23278722744746_1_alg».proof.Proof.ProductStage
import proofs.«141376_j23278722744746_1_alg».proof.Proof.BiasStage
import proofs.«141376_j23278722744746_1_alg».proof.Proof.Messages
import Idealize.ShloMosaic.Lib.StableHlo.Run

noncomputable section

namespace Cert.KernelIdeal.Result

open Cert.KernelIdeal Cert.KernelIdeal.Gen
open Idealize.ShloMosaic Idealize.ShloMosaic.TcCoe Idealize.ShloMosaic.StableHlo
open Idealize.SL.Sem
open Idealize.ShloMosaic.Pipeline (Dat)

section Stretches

variable {F : FTy → Type} [FloatOps F]

/-- The three host stretches between the two tiled stages, from any contents: the aggregated-messages buffer ends at
    the message-passing stage of the first stage's output buffer, the edge lists and the relation weights. -/
theorem stretches_messages (X : Valuation τ sig (Elt F)) :
    after hostOps1_2 (after hostOps1_1 (after hostOps1 X)) (Proc.devRef .tc main_v39)
      = Messages.aggregate (X (Proc.devRef .tc main_v0)) (X (Proc.devRef .tc main_arg2)) (X (Proc.devRef .tc main_arg3))
          (X (Proc.devRef .tc main_arg4)) (X (Proc.devRef .tc main_arg7)) := by
  dsimp only [hostOps1, hostOps1_1, hostOps1_2]
  after_results_simp
  rfl

end Stretches

variable (m : (ℓ : Loc nD τ sig) → Buf (Elt Ideal) ℓ) (ρ : Dev nD → PrngReg)

/-- The result buffer's last contents: the bias added to every row of the aggregated messages of the product of the
    source features with the weights. -/
theorem result_eq (c : Dev nD) :
    W5 m ρ c (Proc.devRef .tc main_v40)
      = Messages.layer (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Messages.layer
  have e5 : W5 m ρ c (Proc.devRef .tc main_v40) = (dat1 (V4 m ρ) c).arrAt 2 cfg1.N := W5_arr m ρ c 2
  have e39 : V4 m ρ c main_v39
      = Messages.aggregate (W1 m ρ c (Proc.devRef .tc main_v0)) (W1 m ρ c (Proc.devRef .tc main_arg2))
          (W1 m ρ c (Proc.devRef .tc main_arg3)) (W1 m ρ c (Proc.devRef .tc main_arg4)) (W1 m ρ c (Proc.devRef .tc main_arg7)) :=
    stretches_messages (W1 m ρ c)
  have e6 : V4 m ρ c main_arg6 = (m ((c.tc : Thread nD τ).loc main_arg6)) :=
    ((W5_arr m ρ c 1).trans (((dat1 (V4 m ρ) c).arrAt_in 1 rfl _).trans (A_eq1 (V4 m ρ) c 1))).symm.trans (W5_main_arg6 m ρ c)
  have e0 : W1 m ρ c (Proc.devRef .tc main_v0) = Cert.Layer.prod (m ((c.tc : Thread nD τ).loc main_arg0)) (m ((c.tc : Thread nD τ).loc main_arg5)) :=
    (W1_arr m ρ c 2).trans (ProductStage.array_eq (V0 m ρ) c)
  have e2 : W1 m ρ c (Proc.devRef .tc main_arg2) = (m ((c.tc : Thread nD τ).loc main_arg2)) := W1_of_ne m ρ c main_arg2 (by decide)
  have e3 : W1 m ρ c (Proc.devRef .tc main_arg3) = (m ((c.tc : Thread nD τ).loc main_arg3)) := W1_of_ne m ρ c main_arg3 (by decide)
  have e4 : W1 m ρ c (Proc.devRef .tc main_arg4) = (m ((c.tc : Thread nD τ).loc main_arg4)) := W1_of_ne m ρ c main_arg4 (by decide)
  have e7 : W1 m ρ c (Proc.devRef .tc main_arg7) = (m ((c.tc : Thread nD τ).loc main_arg7)) := W1_of_ne m ρ c main_arg7 (by decide)
  rw [e5, BiasStage.array_eq (V4 m ρ) c, e39, e6, e0, e2, e3, e4, e7]

end Cert.KernelIdeal.Result

end
-- ==== Proof.RefLine.lean ====
/-
  The reference program's @main as one straight line of host operations, and its run.

  @main calls the leaky rectifier once; the call is the callee's seven operations on the call's own buffers (the
  comparison with zero, the slope 0.01 times the argument, the selection), so the whole program is a list of sixty-one
  operations.  Every weakly fair execution of that line terminates, and each buffer ends at the fold of the operations
  over the launch contents.
-/
import proofs.«141376_j23278722744746_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

/-- @main's operations in order, the rectifier's call unfolded at its place. -/
abbrev ops : List (HloOp τ sig (Elt F)) :=
  [ StableHlo.binary main_arg0 main_arg5 main_v0 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_arg1 main_arg5 main_v1 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst (constant S_ .f32 0x42C80000#32),
    StableHlo.unary main_cst main_v2 (broadcastInDim S7 ![] bcast_S_S7 : (⟨S_, .f32⟩ : BufTy).Contents (Elt F) → (⟨S7, .f32⟩ : BufTy).Contents (Elt F)),
    StableHlo.binary main_arg7 main_v2 main_v3 (mulf : (⟨S7, .f32⟩ : BufTy).Contents (Elt F) → (⟨S7, .f32⟩ : BufTy).Contents (Elt F) → (⟨S7, .f32⟩ : BufTy).Contents (Elt F)),
    StableHlo.TRef.nullary main_call0.cst (constant S_ .f32 0x00000000#32),
    StableHlo.TRef.unary main_call0.cst main_call0.v0 (broadcastInDim S7 ![] bcast_S_S7),
    StableHlo.TRef.binary (.of main_v3) main_call0.v0 main_call0.v1 (cmpf .oge),
    StableHlo.TRef.nullary main_call0.cst_0 (constant S_ .f32 0x3C23D70A#32),
    StableHlo.TRef.unary main_call0.cst_0 main_call0.v2 (broadcastInDim S7 ![] bcast_S_S7),
    StableHlo.TRef.binary main_call0.v2 (.of main_v3) main_call0.v3 mulf,
    StableHlo.TRef.ternary main_call0.v1 (.of main_v3) main_call0.v3 main_call0.call0.v0 select,
    StableHlo.nullary main_c (constantI S_ 32 0#32),
    StableHlo.unary main_c main_v5 (broadcastInDim S600000 ![] bcast_S_S600000 : (⟨S_, .i32⟩ : BufTy).Contents (Elt F) → (⟨S600000, .i32⟩ : BufTy).Contents (Elt F)),
    StableHlo.binary main_arg4 main_v5 main_v6 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 7#32),
    StableHlo.unary main_c_0 main_v7 (broadcastInDim S600000 ![] bcast_S_S600000 : (⟨S_, .i32⟩ : BufTy).Contents (Elt F) → (⟨S600000, .i32⟩ : BufTy).Contents (Elt F)),
    StableHlo.binary main_arg4 main_v7 main_v8 (addi : (⟨S600000, .i32⟩ : BufTy).Contents (Elt F) → (⟨S600000, .i32⟩ : BufTy).Contents (Elt F) → (⟨S600000, .i32⟩ : BufTy).Contents (Elt F)),
    StableHlo.ternary main_v6 main_v8 main_arg4 main_v9 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v9 main_v10 (broadcastInDim S600000x1 ![0] bcast_S600000_S600000x1_0 : (⟨S600000, .i32⟩ : BufTy).Contents (Elt F) → (⟨S600000x1, .i32⟩ : BufTy).Contents (Elt F)),
    StableHlo.binary main_v4 main_v10 main_v11 ((fun x i => Host.gather gather_S7_S600000x1_S600000_n_0_n_n_0_1_1 x i) : (⟨S7, .f32⟩ : BufTy).Contents (Elt F) → (⟨S600000x1, .i32⟩ : BufTy).Contents (Elt F) → (⟨S600000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.unary main_arg3 main_v13 (broadcastInDim S600000x1 ![0] bcast_S600000_S600000x1_0 : (⟨S600000, .i32⟩ : BufTy).Contents (Elt F) → (⟨S600000x1, .i32⟩ : BufTy).Contents (Elt F)),
    StableHlo.ternary main_v12 main_v13 main_v11 main_v14 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_c_2 (constantI S_ 32 0#32),
    StableHlo.unary main_c_2 main_v15 (broadcastInDim S600000 ![] bcast_S_S600000 : (⟨S_, .i32⟩ : BufTy).Contents (Elt F) → (⟨S600000, .i32⟩ : BufTy).Contents (Elt F)),
    StableHlo.binary main_arg3 main_v15 main_v16 (cmpi .slt : (⟨S600000, .i32⟩ : BufTy).Contents (Elt F) → (⟨S600000, .i32⟩ : BufTy).Contents (Elt F) → (⟨S600000, .i1⟩ : BufTy).Contents (Elt F)),
    StableHlo.nullary main_c_3 (constantI S_ 32 100000#32),
    StableHlo.unary main_c_3 main_v17 (broadcastInDim S600000 ![] bcast_S_S600000 : (⟨S_, .i32⟩ : BufTy).Contents (Elt F) → (⟨S600000, .i32⟩ : BufTy).Contents (Elt F)),
    StableHlo.binary main_arg3 main_v17 main_v18 (addi : (⟨S600000, .i32⟩ : BufTy).Contents (Elt F) → (⟨S600000, .i32⟩ : BufTy).Contents (Elt F) → (⟨S600000, .i32⟩ : BufTy).Contents (Elt F)),
    StableHlo.ternary main_v16 main_v18 main_arg3 main_v19 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v19 main_v20 (broadcastInDim S600000x1 ![0] bcast_S600000_S600000x1_0 : (⟨S600000, .i32⟩ : BufTy).Contents (Elt F) → (⟨S600000x1, .i32⟩ : BufTy).Contents (Elt F)),
    StableHlo.binary main_v14 main_v20 main_v21 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    StableHlo.binary main_v11 main_v21 main_v22 (Host.divf : (⟨S600000, .f32⟩ : BufTy).Contents (Elt F) → (⟨S600000, .f32⟩ : BufTy).Contents (Elt F) → (⟨S600000, .f32⟩ : BufTy).Contents (Elt F)),
    StableHlo.unary main_v22 main_v23 (broadcastInDim S600000x1 ![0] bcast_S600000_S600000x1_0 : (⟨S600000, .f32⟩ : BufTy).Contents (Elt F) → (⟨S600000x1, .f32⟩ : BufTy).Contents (Elt F)),
    StableHlo.nullary main_c_4 (constantI S_ 32 0#32),
    StableHlo.unary main_c_4 main_v24 (broadcastInDim S600000 ![] bcast_S_S600000 : (⟨S_, .i32⟩ : BufTy).Contents (Elt F) → (⟨S600000, .i32⟩ : BufTy).Contents (Elt F)),
    StableHlo.binary main_arg2 main_v24 main_v25 (cmpi .slt : (⟨S600000, .i32⟩ : BufTy).Contents (Elt F) → (⟨S600000, .i32⟩ : BufTy).Contents (Elt F) → (⟨S600000, .i1⟩ : BufTy).Contents (Elt F)),
    StableHlo.nullary main_c_5 (constantI S_ 32 200000#32),
    StableHlo.unary main_c_5 main_v26 (broadcastInDim S600000 ![] bcast_S_S600000 : (⟨S_, .i32⟩ : BufTy).Contents (Elt F) → (⟨S600000, .i32⟩ : BufTy).Contents (Elt F)),
    StableHlo.binary main_arg2 main_v26 main_v27 (addi : (⟨S600000, .i32⟩ : BufTy).Contents (Elt F) → (⟨S600000, .i32⟩ : BufTy).Contents (Elt F) → (⟨S600000, .i32⟩ : BufTy).Contents (Elt F)),
    StableHlo.ternary main_v25 main_v27 main_arg2 main_v28 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v28 main_v29 (broadcastInDim S600000x1 ![0] bcast_S600000_S600000x1_0 : (⟨S600000, .i32⟩ : BufTy).Contents (Elt F) → (⟨S600000x1, .i32⟩ : BufTy).Contents (Elt F)),
    StableHlo.binary main_v0 main_v29 main_v30 ((fun x i => Host.gather gather_S200000x128_S600000x1_S600000x128_1_0_n_n_0_1_1128 x i) : (⟨S200000x128, .f32⟩ : BufTy).Contents (Elt F) → (⟨S600000x1, .i32⟩ : BufTy).Contents (Elt F) → (⟨S600000x128, .f32⟩ : BufTy).Contents (Elt F)),
    StableHlo.unary main_v23 main_v31 (broadcastInDim S600000x128 ![0, 1] bcast_S600000x1_S600000x128_0_1 : (⟨S600000x1, .f32⟩ : BufTy).Contents (Elt F) → (⟨S600000x128, .f32⟩ : BufTy).Contents (Elt F)),
    StableHlo.binary main_v31 main_v30 main_v32 (mulf : (⟨S600000x128, .f32⟩ : BufTy).Contents (Elt F) → (⟨S600000x128, .f32⟩ : BufTy).Contents (Elt F) → (⟨S600000x128, .f32⟩ : BufTy).Contents (Elt F)),
    StableHlo.nullary main_cst_6 (constant S_ .f32 0x00000000#32),
    StableHlo.unary main_cst_6 main_v33 (broadcastInDim S100000x128 ![] bcast_S_S100000x128 : (⟨S_, .f32⟩ : BufTy).Contents (Elt F) → (⟨S100000x128, .f32⟩ : BufTy).Contents (Elt F)),
    StableHlo.nullary main_c_7 (constantI S_ 32 0#32),
    StableHlo.unary main_c_7 main_v34 (broadcastInDim S600000 ![] bcast_S_S600000 : (⟨S_, .i32⟩ : BufTy).Contents (Elt F) → (⟨S600000, .i32⟩ : BufTy).Contents (Elt F)),
    StableHlo.binary main_arg3 main_v34 main_v35 (cmpi .slt : (⟨S600000, .i32⟩ : BufTy).Contents (Elt F) → (⟨S600000, .i32⟩ : BufTy).Contents (Elt F) → (⟨S600000, .i1⟩ : BufTy).Contents (Elt F)),
    StableHlo.nullary main_c_8 (constantI S_ 32 100000#32),
    StableHlo.unary main_c_8 main_v36 (broadcastInDim S600000 ![] bcast_S_S600000 : (⟨S_, .i32⟩ : BufTy).Contents (Elt F) → (⟨S600000, .i32⟩ : BufTy).Contents (Elt F)),
    StableHlo.binary main_arg3 main_v36 main_v37 (addi : (⟨S600000, .i32⟩ : BufTy).Contents (Elt F) → (⟨S600000, .i32⟩ : BufTy).Contents (Elt F) → (⟨S600000, .i32⟩ : BufTy).Contents (Elt F)),
    StableHlo.ternary main_v35 main_v37 main_arg3 main_v38 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v38 main_v39 (broadcastInDim S600000x1 ![0] bcast_S600000_S600000x1_0 : (⟨S600000, .i32⟩ : BufTy).Contents (Elt F) → (⟨S600000x1, .i32⟩ : BufTy).Contents (Elt F)),
    StableHlo.ternary main_v33 main_v39 main_v32 main_v40 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.unary main_arg6 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)) ]

set_option maxRecDepth 4096 in
/-- @main is that line: the callees' definitions unfolded at the call and the sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops_sub : (ops : List (HloOp τ sig (Elt F))).Forall fun op => op.bufs ⊆ tcRefs τ sig :=
  ⟨StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.binary_bufs_sub ..⟩

/-- From any memory with zero counters every weakly fair execution of @main terminates, and every TensorCore buffer
    ends at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.LibHostForms.lean ====
/-
  Host-side readings at an entry (p, q), on the extended reals and for variable extents.

  A bias kept as a row: the host's broadcast of a vector [b] to a row [1, b] along axis 1 reads at (0, q) the entry q,
  and its broadcast of a row [1, b] to [a, b] reads at (p, q) the row's entry (0, q).  And the host's ordinary matrix
  product — an [a, n] array times an [n, b] array, contracting the second axis of the left with the first of the right,
  no batch axis — is at (p, q) the sum over k of left (p, k) · right (k, q).
-/
import Idealize.ShloMosaic.Lib.Pipeline.Value
import Idealize.ShloMosaic.Lib.ValueIdx
import Idealize.ShloMosaic.PureOps.Ideal.Laws
import proofs.«141376_j23278722744746_1_alg».proof.Proof.LibPlainMatmul

noncomputable section

open scoped BigOperators

namespace Cert.HostForms

open Idealize.ShloMosaic Idealize.ShloMosaic.ValueIdx

variable {α : Type}

/-- The host's broadcast of a vector [b] to a row [1, b] along axis 1 reads, at (z, q), its entry `q`. -/
theorem host_row_apply {b : ℕ} (v : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h v (ix2 z q) = v (ix1 q) := by
  refine broadcastInDim_apply _ h v (ix2 z q) (ix1 q) fun ax => ?_
  match ax with
  | ⟨0, _⟩ =>
    show q.val = if b = 1 then 0 else q.val
    split
    · have := q.isLt; omega
    · rfl

/-- The host's broadcast of a row [1, b] to [a, b] reads, at (p, q), the row's entry of column `q`. -/
theorem host_row_repeat_apply {a b : ℕ} (u : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h u (ix2 p q) = u (ix2 (0 : Fin 1) q) := by
  refine broadcastInDim_apply _ h u (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- The host's ordinary product: at (p, q) the sum over k of left (p, k) · right (k, q). -/
theorem host_product_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    Host.dotGeneral (F := Ideal) (Cert.PlainMatmul.dims wf) prec L R (ix2 p q)
      = ∑ k : Fin n, L (ix2 p k) * R (ix2 k q) := by
  simp only [Host.dotGeneral]
  rw [Ideal.dotGeneral_apply, ← Equiv.sum_comp (contrEquiv1 (Cert.PlainMatmul.dims wf) n rfl rfl).symm]
  refine Finset.sum_congr rfl fun k _ => ?_
  have hk := contrEquiv1_symm_val (Cert.PlainMatmul.dims wf) n rfl rfl k
  have el : (Cert.PlainMatmul.dims wf).lhsIdx (ix2 p q) ((contrEquiv1 (Cert.PlainMatmul.dims wf) n rfl rfl).symm k) = ix2 p k :=
    funext fun ax => Fin.ext (by
      match ax with
      | ⟨0, _⟩ => rfl
      | ⟨1, _⟩ => exact ((Cert.PlainMatmul.dims wf).lhsIdx_val_of_single rfl _ _).trans hk)
  have er : (Cert.PlainMatmul.dims wf).rhsIdx (ix2 p q) ((contrEquiv1 (Cert.PlainMatmul.dims wf) n rfl rfl).symm k) = ix2 k q :=
    funext fun ax => Fin.ext (by
      match ax with
      | ⟨0, _⟩ => exact ((Cert.PlainMatmul.dims wf).rhsIdx_val_of_single rfl _ _).trans hk
      | ⟨1, _⟩ => rfl)
  rw [el, er]

end Cert.HostForms

end
-- ==== Proof.RefResult.lean ====
/-
  The idealized reference program's result as a function of its arguments.

  The fold of the reference's sixty-one operations at its result buffer is: the product of the source features with the
  weights (the host's matrix product), the message-passing stage on it, and the bias — made a row [1, 128], then repeated
  over the 100000 rows — added.  On the extended reals the host's product at (p, q) is the sum over k of
  feature (p, k) · weight (k, q), and the repeated row at (p, q) is bias q.  (The second product the reference
  computes, of the target features, feeds nothing.)
-/
import proofs.«141376_j23278722744746_1_alg».proof.Proof.RefLine
import proofs.«141376_j23278722744746_1_alg».proof.Proof.Messages
import proofs.«141376_j23278722744746_1_alg».proof.Proof.Spec
import proofs.«141376_j23278722744746_1_alg».proof.Proof.LibHostForms
import Idealize.ShloMosaic.Lib.ValueIdx

noncomputable section

namespace Cert.ReferenceIdeal.Result

open Cert.ReferenceIdeal Cert.ReferenceIdeal.Gen Cert.ReferenceIdeal.Line
open Idealize.ShloMosaic Idealize.ShloMosaic.TcCoe Idealize.ShloMosaic.StableHlo Idealize.ShloMosaic.ValueIdx
open Idealize.SL.Sem

section Fold

variable {F : FTy → Type} [FloatOps F]

/-- The line's fold at the result buffer, from any contents. -/
theorem line_result (V : Valuation τ sig (Elt F)) :
    after (ops (F := F)) V (Proc.devRef .tc main_v43)
      = addf (Cert.KernelIdeal.Messages.aggregate
            (Host.dotGeneral dot_S200000x128_S128x128_S200000x128_1_0_0_1_n_n none (V (Proc.devRef .tc main_arg0)) (V (Proc.devRef .tc main_arg5)))
            (V (Proc.devRef .tc main_arg2)) (V (Proc.devRef .tc main_arg3)) (V (Proc.devRef .tc main_arg4)) (V (Proc.devRef .tc main_arg7)))
          (broadcastInDim S100000x128 ![0, 1] bcast_S1x128_S100000x128_0_1
            (broadcastInDim S1x128 ![1] bcast_S128_S1x128_1 (V (Proc.devRef .tc main_arg6)))) := by
  dsimp only [ops]
  after_results_simp
  rfl

/-- No operation writes argument 0. -/
theorem kept_arg0 (V : Valuation τ sig (Elt F)) :
    after (ops (F := F)) V (Proc.devRef .tc main_arg0) = V (Proc.devRef .tc main_arg0) := by
  dsimp only [ops]
  after_results_simp
/-- No operation writes argument 1. -/
theorem kept_arg1 (V : Valuation τ sig (Elt F)) :
    after (ops (F := F)) V (Proc.devRef .tc main_arg1) = V (Proc.devRef .tc main_arg1) := by
  dsimp only [ops]
  after_results_simp
/-- No operation writes argument 2. -/
theorem kept_arg2 (V : Valuation τ sig (Elt F)) :
    after (ops (F := F)) V (Proc.devRef .tc main_arg2) = V (Proc.devRef .tc main_arg2) := by
  dsimp only [ops]
  after_results_simp
/-- No operation writes argument 3. -/
theorem kept_arg3 (V : Valuation τ sig (Elt F)) :
    after (ops (F := F)) V (Proc.devRef .tc main_arg3) = V (Proc.devRef .tc main_arg3) := by
  dsimp only [ops]
  after_results_simp
/-- No operation writes argument 4. -/
theorem kept_arg4 (V : Valuation τ sig (Elt F)) :
    after (ops (F := F)) V (Proc.devRef .tc main_arg4) = V (Proc.devRef .tc main_arg4) := by
  dsimp only [ops]
  after_results_simp
/-- No operation writes argument 5. -/
theorem kept_arg5 (V : Valuation τ sig (Elt F)) :
    after (ops (F := F)) V (Proc.devRef .tc main_arg5) = V (Proc.devRef .tc main_arg5) := by
  dsimp only [ops]
  after_results_simp
/-- No operation writes argument 6. -/
theorem kept_arg6 (V : Valuation τ sig (Elt F)) :
    after (ops (F := F)) V (Proc.devRef .tc main_arg6) = V (Proc.devRef .tc main_arg6) := by
  dsimp only [ops]
  after_results_simp
/-- No operation writes argument 7. -/
theorem kept_arg7 (V : Valuation τ sig (Elt F)) :
    after (ops (F := F)) V (Proc.devRef .tc main_arg7) = V (Proc.devRef .tc main_arg7) := by
  dsimp only [ops]
  after_results_simp

end Fold

/-- The host's product of the source features with the weights is the entry-by-entry product. -/
theorem product_eq (X : FVec Ideal S200000x128 .f32) (W : FVec Ideal S128x128 .f32) :
    Host.dotGeneral (F := Ideal) dot_S200000x128_S128x128_S200000x128_1_0_0_1_n_n none X W = Cert.Layer.prod X W := by
  funext i
  obtain ⟨p, q, rfl⟩ : ∃ (p : Fin 200000) (q : Fin 128), i = ix2 p q := ⟨i 0, i 1, eq_ix2 i⟩
  exact Cert.HostForms.host_product_apply dot_S200000x128_S128x128_S200000x128_1_0_0_1_n_n_wf none X W p q

/-- Adding the bias made a row and repeated over the rows is adding it to every row. -/
theorem bias_eq (A : FVec Ideal S100000x128 .f32) (b : FVec Ideal S128 .f32) :
    addf A (broadcastInDim S100000x128 ![0, 1] bcast_S1x128_S100000x128_0_1
        (broadcastInDim S1x128 ![1] bcast_S128_S1x128_1 b)) = Cert.Layer.addRow A b := by
  funext i
  obtain ⟨p, q, rfl⟩ : ∃ (p : Fin 100000) (q : Fin 128), i = ix2 p q := ⟨i 0, i 1, eq_ix2 i⟩
  show A (ix2 p q) + broadcastInDim S100000x128 ![0, 1] bcast_S1x128_S100000x128_0_1
      (broadcastInDim S1x128 ![1] bcast_S128_S1x128_1 b) (ix2 p q) = A (ix2 p q) + b (ix1 q)
  rw [Cert.HostForms.host_row_repeat_apply, Cert.HostForms.host_row_apply]

/-- The reference's result: the bias added to every row of the aggregated messages of the product of the source
    features with the weights. -/
theorem result_eq (V : Valuation τ sig (Elt Ideal)) :
    after (ops (F := Ideal)) V (Proc.devRef .tc main_v43)
      = Cert.KernelIdeal.Messages.layer (V (Proc.devRef .tc main_arg0)) (V (Proc.devRef .tc main_arg2)) (V (Proc.devRef .tc main_arg3)) (V (Proc.devRef .tc main_arg4))
          (V (Proc.devRef .tc main_arg5)) (V (Proc.devRef .tc main_arg6)) (V (Proc.devRef .tc main_arg7)) := by
  unfold Cert.KernelIdeal.Messages.layer
  rw [line_result, product_eq, bias_eq]

end Cert.ReferenceIdeal.Result

end
-- ==== Proof.lean ====
/-
  One layer of weighted message passing over a typed edge list, computed in two ways that agree on the extended reals.

  Both programs compute, from source features x [200000, 128], edge lists row, col, et [600000], weights w [128, 128],
  a bias b [128] and relation weights rel [7]: the product h = x · w; the messages — per edge the rectified relation
  weight of its type, normalized by the sum of such weights into its destination, times row h[row] — summed per destination
  into a [100000, 128] array; and the bias added to every row.  The kernel program tiles the product over twenty-five
  row blocks and the bias addition over twenty row blocks; the reference uses one host matrix product and one host
  addition of the repeated bias.  A tiled product's block is the block of the whole product, a sum over k either way, and
  the blocks tile the rows; likewise for the bias addition.  In between both programs apply the same host operations, so
  the two results are one function of the arguments, `Messages.layer`; no law that needs finite inputs is used.

  The frames of the two kernel programs are the generated ones; the reference's frame and result are its run as a line of
  host operations.  The idealization rewrote nothing, so the kernel program read at the extended reals is its own
  idealization.
-/
import proofs.«141376_j23278722744746_1_alg».proof.Defs
import proofs.«141376_j23278722744746_1_alg».proof.Proof.Gen.Kernel
import proofs.«141376_j23278722744746_1_alg».proof.Proof.Gen.Kernel.Frame
import proofs.«141376_j23278722744746_1_alg».proof.Proof.Gen.KernelIdeal
import proofs.«141376_j23278722744746_1_alg».proof.Proof.Gen.KernelIdeal.Frame
import proofs.«141376_j23278722744746_1_alg».proof.Proof.Gen.ReferenceIdeal
import proofs.«141376_j23278722744746_1_alg».proof.Proof.Gen.Pre_finite_inputs
import proofs.«141376_j23278722744746_1_alg».proof.Proof.KernelWhole
import proofs.«141376_j23278722744746_1_alg».proof.Proof.KernelResult
import proofs.«141376_j23278722744746_1_alg».proof.Proof.RefLine
import proofs.«141376_j23278722744746_1_alg».proof.Proof.RefResult
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does the kernel program read at the extended reals. -/
theorem frame_ideal : Cert.frame_KernelIdeal := fun m ρ _ => Cert.KernelIdeal.Gen.frame m ρ

/-- The reference is a line of host operations none of which writes an argument. -/
theorem frame_reference : Cert.frame_ReferenceIdeal := fun m ρ _ =>
  (θ_run Cert.ReferenceIdeal.defs _ _).mono (fun _ h c =>
      ⟨(h c Cert.ReferenceIdeal.main_arg0).trans (Cert.ReferenceIdeal.Result.kept_arg0 _),
       (h c Cert.ReferenceIdeal.main_arg1).trans (Cert.ReferenceIdeal.Result.kept_arg1 _),
       (h c Cert.ReferenceIdeal.main_arg2).trans (Cert.ReferenceIdeal.Result.kept_arg2 _),
       (h c Cert.ReferenceIdeal.main_arg3).trans (Cert.ReferenceIdeal.Result.kept_arg3 _),
       (h c Cert.ReferenceIdeal.main_arg4).trans (Cert.ReferenceIdeal.Result.kept_arg4 _),
       (h c Cert.ReferenceIdeal.main_arg5).trans (Cert.ReferenceIdeal.Result.kept_arg5 _),
       (h c Cert.ReferenceIdeal.main_arg6).trans (Cert.ReferenceIdeal.Result.kept_arg6 _),
       (h c Cert.ReferenceIdeal.main_arg7).trans (Cert.ReferenceIdeal.Result.kept_arg7 _)⟩)
    (Cert.ReferenceIdeal.Line.run_main (F := Ideal) m ρ)

/-- The idealization rewrote no operation. -/
theorem preserves : Cert.preserves_Kernel_KernelIdeal := trivial

/-- From memories agreeing on the arguments both programs end with the layer of those arguments in their result
    buffers, the arguments unchanged. -/
theorem algebraic : Cert.algebraic_KernelIdeal_ReferenceIdeal := by
  intro m ρ m' ρ' _ hagree
  refine ⟨fun c => Cert.KernelIdeal.Messages.layer (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Result.result_eq m ρ c), (h c).2⟩)
      (Cert.KernelIdeal.Whole.run (F := Ideal) m ρ)
  · refine (θ_run Cert.ReferenceIdeal.defs _ _).mono (fun _ h c => ⟨?_,
       (h c Cert.ReferenceIdeal.main_arg0).trans (Cert.ReferenceIdeal.Result.kept_arg0 _),
       (h c Cert.ReferenceIdeal.main_arg1).trans (Cert.ReferenceIdeal.Result.kept_arg1 _),
       (h c Cert.ReferenceIdeal.main_arg2).trans (Cert.ReferenceIdeal.Result.kept_arg2 _),
       (h c Cert.ReferenceIdeal.main_arg3).trans (Cert.ReferenceIdeal.Result.kept_arg3 _),
       (h c Cert.ReferenceIdeal.main_arg4).trans (Cert.ReferenceIdeal.Result.kept_arg4 _),
       (h c Cert.ReferenceIdeal.main_arg5).trans (Cert.ReferenceIdeal.Result.kept_arg5 _),
       (h c Cert.ReferenceIdeal.main_arg6).trans (Cert.ReferenceIdeal.Result.kept_arg6 _),
       (h c Cert.ReferenceIdeal.main_arg7).trans (Cert.ReferenceIdeal.Result.kept_arg7 _)⟩)
      (Cert.ReferenceIdeal.Line.run_main (F := Ideal) m' ρ')
    obtain ⟨a0, a1, a2, a3, a4, a5, a6, a7⟩ := hagree c
    rw [h c Cert.ReferenceIdeal.main_v43, Cert.ReferenceIdeal.Result.result_eq]
    beta_reduce
    rw [← a0, ← a2, ← a3, ← a4, ← a5, ← a6, ← a7]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
